-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S32x32 : Shape := ⟨2, ![32, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S8192x4096 .f32) (main_arg1 : FVec F S4096x4096 .f32) (main_arg2 : FVec F S32x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S32x32 : Shape := ⟨2, ![32, 32]⟩
abbrev S32x128x32x128 : Shape := ⟨4, ![32, 128, 32, 128]⟩
abbrev S32x1x32x1 : Shape := ⟨4, ![32, 1, 32, 1]⟩
abbrev S128x4096 : Shape := ⟨2, ![128, 4096]⟩

abbrev nBuf : Space → Nat
  | .hbm => 11
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S32x128x32x128, .f32⟩
  | .hbm, ⟨4, _⟩ => ⟨S32x1x32x1, .f32⟩
  | .hbm, ⟨5, _⟩ => ⟨S32x128x32x128, .f32⟩
  | .hbm, ⟨6, _⟩ => ⟨S32x128x32x128, .f32⟩
  | .hbm, ⟨7, _⟩ => ⟨S32x128x32x128, .f32⟩
  | .hbm, ⟨8, _⟩ => ⟨S4096x4096, .f32⟩
  | .hbm, ⟨9, _⟩ => ⟨S4096x4096, .bf16⟩
  | .hbm, ⟨10, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S128x4096, .f32⟩
  | .local _ .vmem, ⟨4, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x4096_S32x128x32x128 : S4096x4096.ShapeCasts S32x128x32x128
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  transposes_S32x128x32x128_S32x128x32x128_2_3_0_1 : S32x128x32x128.Transposes [2, 3, 0, 1] S32x128x32x128
  shapeCasts_S32x128x32x128_S4096x4096 : S32x128x32x128.ShapeCasts S4096x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S32x32 : Shape := ⟨2, ![32, 32]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S32x128x32x128 : Shape := ⟨4, ![32, 128, 32, 128]⟩
abbrev S32x1x32x1 : Shape := ⟨4, ![32, 1, 32, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S8192x32x128, .f32⟩
  | .hbm, ⟨4, _⟩ => ⟨S8192x32x128, .f32⟩
  | .hbm, ⟨5, _⟩ => ⟨S_, .f32⟩
  | .hbm, ⟨6, _⟩ => ⟨S8192x32, .f32⟩
  | .hbm, ⟨7, _⟩ => ⟨S8192x32x1, .f32⟩
  | .hbm, ⟨8, _⟩ => ⟨S_, .f32⟩
  | .hbm, ⟨9, _⟩ => ⟨S8192x32x1, .f32⟩
  | .hbm, ⟨10, _⟩ => ⟨S8192x32x1, .f32⟩
  | .hbm, ⟨11, _⟩ => ⟨S8192x32x128, .f32⟩
  | .hbm, ⟨12, _⟩ => ⟨S8192x32x128, .f32⟩
  | .hbm, ⟨13, _⟩ => ⟨S32x128x32x128, .f32⟩
  | .hbm, ⟨14, _⟩ => ⟨S32x1x32x1, .f32⟩
  | .hbm, ⟨15, _⟩ => ⟨S32x128x32x128, .f32⟩
  | .hbm, ⟨16, _⟩ => ⟨S32x128x32x128, .f32⟩
  | .hbm, ⟨17, _⟩ => ⟨S4096x4096, .f32⟩
  | .hbm, ⟨18, _⟩ => ⟨S8192x32x128, .f32⟩
  | .hbm, ⟨19, _⟩ => ⟨S8192x32x128, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  shapeCasts_S4096x4096_S32x128x32x128 : S4096x4096.ShapeCasts S32x128x32x128
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  shapeCasts_S32x128x32x128_S4096x4096 : S32x128x32x128.ShapeCasts S4096x4096
  shapeCasts_S8192x32x128_S8192x4096 : S8192x32x128.ShapeCasts S8192x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  What both programs compute, as one function of the three argument arrays, over the extended reals.
  The activations `x` are an 8192 × 4096 matrix (row, input feature); the weights `w` a 4096 × 4096 matrix
  (output feature, input feature); the scales `sc` a 32 × 32 matrix with one entry per 128 × 128 tile of `w`.
  The dequantized weight at (output feature `o`, input feature `k`) is `w[o, k] · sc[o / 128, k / 128]`, and the
  result at (row `p`, output feature `o`) is the sum over `k` of `x[p, k]` times that weight.
-/
import Idealize.ShloMosaic.PureOps.Ideal
import Idealize.ShloMosaic.Lib.ValueIdx

noncomputable section

namespace Cert.Spec

open Idealize.ShloMosaic Idealize.ShloMosaic.ValueIdx

/-- The tile (of 128 consecutive features) that feature `k` lies in. -/
abbrev tile (k : Fin 4096) : Fin 32 := ⟨k.val / 128, by have := k.isLt; omega⟩

/-- The dequantized weight at (output feature `o`, input feature `k`): the weight times its tile's scale. -/
def wdq (w : FVec Ideal ⟨2, ![4096, 4096]⟩ .f32) (sc : FVec Ideal ⟨2, ![32, 32]⟩ .f32) (o k : Fin 4096) : EReal :=
  w (ix2 o k) * sc (ix2 (tile o) (tile k))

/-- The result: at (row, output feature), the activations' row against the dequantized weights' row. -/
def G (x : FVec Ideal ⟨2, ![8192, 4096]⟩ .f32) (w : FVec Ideal ⟨2, ![4096, 4096]⟩ .f32) (sc : FVec Ideal ⟨2, ![32, 32]⟩ .f32) :
    FVec Ideal ⟨2, ![8192, 4096]⟩ .f32 :=
  fun j => ∑ k : Fin 4096, x (ix2 (j 0) k) * wdq w sc (j 1) k

theorem G_apply (x : FVec Ideal ⟨2, ![8192, 4096]⟩ .f32) (w : FVec Ideal ⟨2, ![4096, 4096]⟩ .f32) (sc : FVec Ideal ⟨2, ![32, 32]⟩ .f32)
    (p : Fin 8192) (o : Fin 4096) : G x w sc (ix2 p o) = ∑ k : Fin 4096, x (ix2 p k) * wdq w sc o k := rfl

end Cert.Spec

end
-- ==== Proof.RoundTrip.lean ====
/-
  The one law that joins the two programs. The reference scales a block of 128 activations by
  `s = (max over the block of |x|) / 448`, divides each activation by `s` and multiplies the quotient by `s` again;
  the kernel uses the activation itself. On finite activations the two agree on the extended reals:
  if the block's maximum is positive, `s` is a positive real and `(x / s) * s = x` is real arithmetic;
  if it is zero, every activation of the block is zero, `0 / 0` is the junk value `⊥`, and `⊥ * 0 = 0`.
  Finiteness is needed: for `x = ⊤` the scale is `⊤`, `⊤ / ⊤ = 0` and the product is `0`, not `⊤`.
-/
import Idealize.ShloMosaic.PureOps.Ideal

noncomputable section

namespace Cert.RoundTrip

open Idealize.ShloMosaic

/-- The pattern `0x43E00000` is the real number 448. -/
theorem ofBits_448 : Ideal.ofBits .f32 0x43E00000#32 = ((448 : ℝ) : EReal) := by
  simp [Ideal.ofBits, Ideal.ieee]
  first
    | exact_mod_cast (by norm_num : (14680064 : ℝ) * (((2 ^ 15 : ℕ) : ℝ))⁻¹ = 448)
    | exact_mod_cast (by norm_num : (14680064 : ℝ) * ((2 : ℝ) ^ 15)⁻¹ = 448)
    | (rw [← EReal.coe_mul]; congr 1; norm_num)

/-- The pattern `0xFF800000` is `-∞`. -/
theorem ofBits_neg_inf : Ideal.ofBits .f32 0xFF800000#32 = (⊥ : EReal) := by
  simp [Ideal.ofBits, Ideal.ieee]

/-- Dividing a real by a scale and multiplying by it again gives the real back, when the scale is a
    non-negative real that vanishes only if the number does. -/
theorem div_mul_cancel_of_real (x r : ℝ) (hr : 0 ≤ r) (hz : r = 0 → x = 0) :
    Ideal.div (x : EReal) (r : EReal) * (r : EReal) = (x : EReal) := by
  by_cases h0 : r = 0
  · rw [h0, hz h0]; simp
  · rw [Ideal.div_coe h0, ← EReal.coe_mul, ← EReal.coe_mul]
    congr 1
    field_simp

/-- The maximum, from `-∞`, of the absolute values of finitely many reals is a real, non-negative when there is at
    least one of them to bound, and bounds each. -/
theorem fold_max_abs_real {n : Nat} (a : Fin n → ℝ) (i : Fin n) :
    ∃ r : ℝ, (Finset.univ : Finset (Fin n)).fold max (⊥ : EReal) (fun k => max (a k : EReal) (-(a k : EReal))) = (r : EReal)
      ∧ |a i| ≤ r := by
  set M : EReal := (Finset.univ : Finset (Fin n)).fold max (⊥ : EReal) (fun k => max (a k : EReal) (-(a k : EReal))) with hM
  have habs : ∀ k, max (a k : EReal) (-(a k : EReal)) = ((|a k| : ℝ) : EReal) := by
    intro k
    rw [abs_eq_max_neg, EReal.coe_strictMono.monotone.map_max, EReal.coe_neg]
  have hle : ((|a i| : ℝ) : EReal) ≤ M := by
    rw [hM, Finset.le_fold_max]
    exact Or.inr ⟨i, Finset.mem_univ _, (habs i).ge⟩
  have hlt : M < ⊤ := by
    rw [hM, Finset.fold_max_lt]
    exact ⟨bot_lt_top, fun k _ => by rw [habs]; exact EReal.coe_lt_top _⟩
  have hbot : M ≠ ⊥ := ne_bot_of_le_ne_bot (EReal.coe_ne_bot _) hle
  lift M to ℝ using ⟨hlt.ne, hbot⟩ with r hr
  exact ⟨r, rfl, by exact_mod_cast hle⟩

/-- THE LAW. For a block `a` of finitely many real activations, with the scale `s` the block's maximum absolute value
    (folded from `-∞`) divided by 448: `(a i / s) * s = a i` on the extended reals, for every entry `i` of the block. -/
theorem quant_dequant {n : Nat} (a : Fin n → ℝ) (i : Fin n) :
    Ideal.div (a i : EReal)
        (Ideal.div ((Finset.univ : Finset (Fin n)).fold max (Ideal.ofBits .f32 0xFF800000#32)
          (fun k => max (a k : EReal) (-(a k : EReal)))) (Ideal.ofBits .f32 0x43E00000#32))
      * Ideal.div ((Finset.univ : Finset (Fin n)).fold max (Ideal.ofBits .f32 0xFF800000#32)
          (fun k => max (a k : EReal) (-(a k : EReal)))) (Ideal.ofBits .f32 0x43E00000#32)
      = (a i : EReal) := by
  obtain ⟨r, hr, hb⟩ := fold_max_abs_real a i
  rw [ofBits_neg_inf, ofBits_448, hr, Ideal.div_coe (by norm_num : (448 : ℝ) ≠ 0), ← EReal.coe_mul]
  have h0 : 0 ≤ r := le_trans (abs_nonneg _) hb
  refine div_mul_cancel_of_real (a i) (r * (1 / 448)) (by positivity) (fun hz => ?_)
  have hr0 : r = 0 := by
    have : r * (1 / 448) = 0 := hz
    have h448 : (1 / 448 : ℝ) ≠ 0 := by norm_num
    exact (mul_eq_zero.1 this).resolve_right h448
  have : |a i| ≤ 0 := hr0 ▸ hb
  exact abs_nonpos_iff.1 this

end Cert.RoundTrip

end
-- ==== Proof.Finite.lean ====
/-
  The precondition read back. It says that the conjunction of three `jnp.all(|·| < +∞)`, one per argument array, is
  true. From it: every activation is a real number (neither infinity). Only the activations' finiteness is used by
  this certificate — the law that joins the two programs (RoundTrip) fails at an infinite activation; the weights and
  the scales enter both programs through the same products and may be any extended reals.
-/
import proofs.«180361_j14293651161742_2_alg».proof.Pre_finite_inputs
import proofs.«180361_j14293651161742_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value compares below the pattern of `+∞` is a real number. -/
theorem real_of_abs_lt (x : Ideal .f32)
    (h : FloatOps.cmpf (F := Ideal) .olt (FloatOps.hostAbsf x) (FloatOps.ofBits (F := Ideal) .f32 0x7F800000#32) = 1#1) :
    ∃ r : ℝ, x = ((r : ℝ) : EReal) := by
  rw [Ideal.cmpf_def, Ideal.hostAbsf_def, Ideal.absf_def, Ideal.ofBits_def] at h
  have htop : Ideal.ofBits .f32 0x7F800000#32 = (⊤ : EReal) := by simp [Ideal.ofBits, Ideal.ieee]
  rw [htop] at h
  induction x using EReal.rec with
  | bot => exfalso; simp [Ideal.cmp] at h
  | coe r => exact ⟨r, rfl⟩
  | top => exfalso; simp [Ideal.cmp] at h

/-- Under the precondition every activation is a real number. -/
theorem real_arg0 [Facts] (x0 : FVec Ideal S8192x4096 .f32) (x1 : FVec Ideal S4096x4096 .f32) (x2 : FVec Ideal S32x32 .f32)
    (h : fn (F := Ideal) x0 x1 x2 = fun _ => 1#1) (i : S8192x4096.Idx) : ∃ r : ℝ, x0 i = ((r : ℝ) : EReal) := by
  have h0 := congrFun h ValueIdx.ix0
  dsimp only [fn] at h0
  obtain ⟨h01, -⟩ := IntOp.andi_eq_one.1 h0
  obtain ⟨h00, -⟩ := IntOp.andi_eq_one.1 h01
  exact real_of_abs_lt (x0 i) (Host.reduce_andi_all _ _ _ _ _ h00 i)

end Cert.Finite

end
-- ==== Proof.RefValue.lean ====
/-
  The reference's result is the specification `G` (Spec) of the argument arrays, when the activations are real numbers.
  The reference splits each activation row into 32 blocks of 128, takes each block's maximum absolute value (a
  reduce by `max` from `-∞`, read here as a fold over the block's 128 lanes), divides by 448 to get the block's
  scale, divides the block by the scale and multiplies it back (RoundTrip: the activation again), and contracts the
  result with the dequantized weights over the input feature.
-/
import proofs.«180361_j14293651161742_2_alg».proof.Proof.Gen.ReferenceIdeal.Read
import proofs.«180361_j14293651161742_2_alg».proof.Proof.Spec
import proofs.«180361_j14293651161742_2_alg».proof.Proof.RoundTrip
import Idealize.ShloMosaic.PureOps.Reduce

noncomputable section

namespace Cert.RefValue

open Cert.ReferenceIdeal Cert.ReferenceIdeal.Gen Cert.ReferenceIdeal.Read Idealize.ShloMosaic Idealize.ShloMosaic.ValueIdx

/-- Dropping the lane axis of (row, block, lane) leaves (row, block). -/
theorem reduces_lane : S8192x32x128.Reduces [2] S8192x32 := by decide

/-- (row, block) with lane `l` put back is (row, block, l). -/
theorem lift_lane (h : S8192x32x128.Reduces [2] S8192x32) (p : Fin 8192) (b : Fin 32) (l : Fin (S8192x32x128.size 2)) :
    h.lift (ix2 p b) l = ix3 p b (⟨l.val, l.isLt⟩ : Fin 128) := by
  funext c; apply Fin.ext
  fin_cases c <;> rfl

/-- The block maximum: the reduce by `max` from `-∞` over the lane axis, at (row, block), is the fold of `max` over the
    128 lanes of the absolute values of the block's activations. -/
theorem block_max (x : (⟨S8192x4096, .f32⟩ : BufTy).Contents (Elt Ideal)) (p : Fin 8192) (b : Fin 32) :
    val_main_v2 (F := Ideal) x (ix2 p b)
      = (Finset.univ : Finset (Fin 128)).fold max (Ideal.ofBits .f32 0xFF800000#32)
          (fun l => max (x (idx_main_v0 (ix3 p b l))) (-(x (idx_main_v0 (ix3 p b l))))) := by
  unfold val_main_v2
  rw [Host.reduce_eq_fold_single FloatOps.maximumf _ _ reducesTo_S8192x32x128_S8192x32_d2 reduces_lane h_S_]
  have hf : (val_main_v1 (F := Ideal) x ∘ reduces_lane.lift (ix2 p b))
      = fun l : Fin 128 => max (x (idx_main_v0 (ix3 p b l))) (-(x (idx_main_v0 (ix3 p b l)))) := by
    funext l
    show val_main_v1 (F := Ideal) x (reduces_lane.lift (ix2 p b) l) = _
    rw [lift_lane, val_main_v1_apply, val_main_v0_apply, Ideal.hostAbsf_def, Ideal.absf_def]
  exact congrArg (fun f => Finset.fold max (Ideal.ofBits .f32 0xFF800000#32) f (Finset.univ : Finset (Fin 128))) hf

/-- Quantize then dequantize, at (row, block, lane): the activation there, when the activations are real. -/
theorem dequant_lane (x : (⟨S8192x4096, .f32⟩ : BufTy).Contents (Elt Ideal)) (hx : ∀ i, ∃ r : ℝ, x i = ((r : ℝ) : EReal))
    (p : Fin 8192) (b : Fin 32) (l : Fin 128) :
    val_main_v14 (F := Ideal) x (ix3 p b l) = x (idx_main_v0 (ix3 p b l)) := by
  have e6 : idx_main_v3 (idx_main_v6 (ix3 p b l)) = ix2 p b := by
    funext a; match a with | ⟨0, _⟩ => rfl | ⟨1, _⟩ => rfl
  have e13 : idx_main_v3 (idx_main_v13 (ix3 p b l)) = ix2 p b := by
    funext a; match a with | ⟨0, _⟩ => rfl | ⟨1, _⟩ => rfl
  simp only [val_main_v14_apply, val_main_v7_apply, val_main_v13_apply, val_main_v6_apply, val_main_v0_apply,
    val_main_v5_apply, val_main_v3_apply, val_main_v4_apply, val_main_cst_0_apply, e6, e13, block_max,
    Ideal.hostDivf_def, Ideal.mulf_def, Ideal.ofBits_def]
  choose xr hxr using hx
  simp only [hxr]
  exact Cert.RoundTrip.quant_dequant (fun l' : Fin 128 => xr (idx_main_v0 (ix3 p b l'))) l

/-- The dequantized activations, reshaped back to (row, input feature), are the activations. -/
theorem dequant (x : (⟨S8192x4096, .f32⟩ : BufTy).Contents (Elt Ideal)) (hx : ∀ i, ∃ r : ℝ, x i = ((r : ℝ) : EReal))
    (p : Fin 8192) (k : Fin 4096) : val_main_v15 (F := Ideal) x (ix2 p k) = x (ix2 p k) := by
  have hp := p.isLt
  have hk := k.isLt
  have e : idx_main_v15 (ix2 p k) = ix3 p (Cert.Spec.tile k) (⟨k.val % 128, Nat.mod_lt _ (by decide)⟩ : Fin 128) := by
    funext a; apply Fin.ext
    match a with
    | ⟨0, _⟩ => show (p.val * 4096 + k.val) / 4096 = p.val; omega
    | ⟨1, _⟩ => show (p.val * 4096 + k.val) / 128 % 32 = k.val / 128; omega
    | ⟨2, _⟩ => show (p.val * 4096 + k.val) % 128 = k.val % 128; omega
  rw [val_main_v15_apply, e, dequant_lane x hx]
  refine congrArg x (funext fun a => Fin.ext ?_)
  match a with
  | ⟨0, _⟩ => show ((p.val * 32 + k.val / 128) * 128 + k.val % 128) / 4096 = p.val; omega
  | ⟨1, _⟩ => show ((p.val * 32 + k.val / 128) * 128 + k.val % 128) % 4096 = k.val; omega

/-- The reference's weight operand at (output feature, input feature) is the dequantized weight there. -/
theorem weight_entry (w : (⟨S4096x4096, .f32⟩ : BufTy).Contents (Elt Ideal)) (sc : (⟨S32x32, .f32⟩ : BufTy).Contents (Elt Ideal))
    (o k : Fin 4096) : val_main_v12 (F := Ideal) w sc (ix2 o k) = Cert.Spec.wdq w sc o k := by
  have ho := o.isLt
  have hk := k.isLt
  have e1 : idx_main_v8 (idx_main_v12 (ix2 o k)) = ix2 o k := by
    funext a; apply Fin.ext
    match a with
    | ⟨0, _⟩ =>
      show ((((o.val * 4096 + k.val) / 524288 * 128 + (o.val * 4096 + k.val) / 4096 % 128) * 32 + (o.val * 4096 + k.val) / 128 % 32) * 128
        + (o.val * 4096 + k.val) % 128) / 4096 = o.val
      omega
    | ⟨1, _⟩ =>
      show ((((o.val * 4096 + k.val) / 524288 * 128 + (o.val * 4096 + k.val) / 4096 % 128) * 32 + (o.val * 4096 + k.val) / 128 % 32) * 128
        + (o.val * 4096 + k.val) % 128) % 4096 = k.val
      omega
  have e2 : idx_main_v9 (idx_main_v10 (idx_main_v12 (ix2 o k))) = ix2 (Cert.Spec.tile o) (Cert.Spec.tile k) := by
    funext a; apply Fin.ext
    match a with
    | ⟨0, _⟩ => show (o.val * 4096 + k.val) / 524288 = o.val / 128; omega
    | ⟨1, _⟩ => show (o.val * 4096 + k.val) / 128 % 32 = k.val / 128; omega
  rw [val_main_v12_apply, val_main_v11_apply, val_main_v8_apply, val_main_v10_apply, val_main_v9_apply, e1, e2]
  rfl

/-- THE REFERENCE IS `G`: its result, as a function of real activations and any weights and scales. -/
theorem result_eq (x : (⟨S8192x4096, .f32⟩ : BufTy).Contents (Elt Ideal)) (w : (⟨S4096x4096, .f32⟩ : BufTy).Contents (Elt Ideal))
    (sc : (⟨S32x32, .f32⟩ : BufTy).Contents (Elt Ideal)) (hx : ∀ i, ∃ r : ℝ, x i = ((r : ℝ) : EReal)) :
    val_main_v16 (F := Ideal) x w sc = Cert.Spec.G x w sc := by
  funext i
  obtain ⟨p, o, rfl⟩ : ∃ (p : Fin 8192) (o : Fin 4096), i = ix2 p o := ⟨i 0, i 1, eq_ix2 i⟩
  rw [val_main_v16_apply, Cert.Spec.G_apply]
  refine Finset.sum_congr rfl fun k _ => ?_
  have el : lidx_main_v16 (ix2 p o) k = ix2 p k := by
    funext a; match a with | ⟨0, _⟩ => rfl | ⟨1, _⟩ => rfl
  have er : ridx_main_v16 (ix2 p o) k = ix2 o k := by
    funext a; match a with | ⟨0, _⟩ => rfl | ⟨1, _⟩ => rfl
  rw [el, er, dequant x hx, weight_entry]

end Cert.RefValue

end
-- ==== Proof.KernelPayload.lean ====
/-
  What the kernel's body stores, read at one entry. The body loads a block of 128 activation rows and the whole
  (input feature × output feature) weight matrix, and stores their matrix product accumulated from zero. At (row `r`
  of the block, output feature `o`) that is the sum over the input feature `k` of the block's `[r, k]` times the
  matrix's `[k, o]`: the change of float format of the activations and the shape cast of the matrix to its own shape
  are the identity on the extended reals.
-/
import proofs.«180361_j14293651161742_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelValue

open Cert.KernelIdeal Cert.KernelIdeal.Gen Idealize.ShloMosaic Idealize.ShloMosaic.ValueIdx

/-- The left operand is read at the result's row, -/
theorem lhs_row (j : S128x4096.Idx) (q : dot_S128x4096_S4096x4096_S128x4096_1_0_0_1_n_n.contr.Idx) :
    (dot_S128x4096_S4096x4096_S128x4096_1_0_0_1_n_n.lhsIdx j q 0).val = (j 0).val := by
  unfold DotDims.lhsIdx
  rw [dif_neg (show ¬(0 : Fin S128x4096.rank) ∈ dot_S128x4096_S4096x4096_S128x4096_1_0_0_1_n_n.lhsBatch by decide),
    dif_pos (show (0 : Fin S128x4096.rank) ∈ dot_S128x4096_S4096x4096_S128x4096_1_0_0_1_n_n.lhsNonContracting by decide)]
  rfl

/-- and at the contracted input feature; -/
theorem lhs_feat (j : S128x4096.Idx) (q : dot_S128x4096_S4096x4096_S128x4096_1_0_0_1_n_n.contr.Idx) :
    (dot_S128x4096_S4096x4096_S128x4096_1_0_0_1_n_n.lhsIdx j q 1).val = (q ⟨0, by decide⟩).val :=
  dot_S128x4096_S4096x4096_S128x4096_1_0_0_1_n_n.lhsIdx_val_of_single rfl j q

/-- the right operand at the contracted input feature, -/
theorem rhs_feat (j : S128x4096.Idx) (q : dot_S128x4096_S4096x4096_S128x4096_1_0_0_1_n_n.contr.Idx) :
    (dot_S128x4096_S4096x4096_S128x4096_1_0_0_1_n_n.rhsIdx j q 0).val = (q ⟨0, by decide⟩).val :=
  dot_S128x4096_S4096x4096_S128x4096_1_0_0_1_n_n.rhsIdx_val_of_single rfl j q

/-- and at the result's output feature. -/
theorem rhs_col (j : S128x4096.Idx) (q : dot_S128x4096_S4096x4096_S128x4096_1_0_0_1_n_n.contr.Idx) :
    (dot_S128x4096_S4096x4096_S128x4096_1_0_0_1_n_n.rhsIdx j q 1).val = (j 1).val := by
  unfold DotDims.rhsIdx
  rw [dif_neg (show ¬(1 : Fin S4096x4096.rank) ∈ dot_S128x4096_S4096x4096_S128x4096_1_0_0_1_n_n.rhsBatch by decide),
    dif_pos (show (1 : Fin S4096x4096.rank) ∈ dot_S128x4096_S4096x4096_S128x4096_1_0_0_1_n_n.rhsNonContracting by decide)]
  rfl

/-- THE BODY'S STORE at (row `r`, output feature `o`): the row of the activation block against the column of the matrix. -/
theorem payload_apply (v0 : Vec Ideal S128x4096 .f32) (v2 : Vec Ideal S4096x4096 .bf16) (r : Fin 128) (o : Fin 4096) :
    k0_pay1 (F := Ideal) v0 v2 (ix2 r o) = ∑ k : Fin 4096, v0 (ix2 r k) * v2 (ix2 k o) := by
  unfold k0_pay1
  rw [shapeCast_self]
  simp only [matmul]
  rw [Ideal.matmul_constant_zero_apply,
    ← Equiv.sum_comp (contrEquiv1 dot_S128x4096_S4096x4096_S128x4096_1_0_0_1_n_n 4096 rfl rfl).symm]
  refine Finset.sum_congr rfl fun k _ => ?_
  have hk := contrEquiv1_symm_val dot_S128x4096_S4096x4096_S128x4096_1_0_0_1_n_n 4096 rfl rfl k
  have el : dot_S128x4096_S4096x4096_S128x4096_1_0_0_1_n_n.lhsIdx (ix2 r o)
      ((contrEquiv1 dot_S128x4096_S4096x4096_S128x4096_1_0_0_1_n_n 4096 rfl rfl).symm k) = ix2 r k := funext fun a => Fin.ext (by
    match a with
    | ⟨0, _⟩ => exact lhs_row _ _
    | ⟨1, _⟩ => exact (lhs_feat _ _).trans hk)
  have er : dot_S128x4096_S4096x4096_S128x4096_1_0_0_1_n_n.rhsIdx (ix2 r o)
      ((contrEquiv1 dot_S128x4096_S4096x4096_S128x4096_1_0_0_1_n_n 4096 rfl rfl).symm k) = ix2 k o := funext fun a => Fin.ext (by
    match a with
    | ⟨0, _⟩ => exact (rhs_feat _ _).trans hk
    | ⟨1, _⟩ => exact rhs_col _ _)
  rw [el, er]
  rfl

end Cert.KernelValue

end
-- ==== Proof.KernelWeights.lean ====
/-
  The kernel's weight operand. Before the call the host program views the weights as (output tile, output lane, input
  tile, input lane), multiplies each by its tile's scale (the 32 × 32 scales broadcast along the two lane axes),
  transposes to (input tile, input lane, output tile, output lane), views that as a 4096 × 4096 matrix (input
  feature, output feature) and changes its float format — the identity on the extended reals. So the operand at
  (input feature `k`, output feature `o`) is the dequantized weight (Spec) at (output feature `o`, input feature `k`).
-/
import proofs.«180361_j14293651161742_2_alg».proof.Proof.Gen.KernelIdeal.Frame
import proofs.«180361_j14293651161742_2_alg».proof.Proof.Spec
import Idealize.ShloMosaic.Lib.StableHlo.Run
import Idealize.ShloMosaic.Lib.Pipeline.Value
import Idealize.ShloMosaic.Lib.ValueIdx

noncomputable section

namespace Cert.KernelValue

open Cert.KernelIdeal Cert.KernelIdeal.Gen Idealize.ShloMosaic Idealize.ShloMosaic.TcCoe Idealize.SL.Sem
open Idealize.ShloMosaic.StableHlo Idealize.ShloMosaic.ValueIdx
open Cert.Spec (tile)

/-- The lane of feature `k` inside its tile. -/
abbrev lane (k : Fin 4096) : Fin 128 := ⟨k.val % 128, Nat.mod_lt _ (by decide)⟩

/-- The host operations before the call, composed: the weight operand as a function of the weights and the scales. -/
def hostWeights (w : FVec Ideal S4096x4096 .f32) (sc : FVec Ideal S32x32 .f32) : FVec Ideal S4096x4096 .bf16 :=
  truncf .bf16
    (shapeCast S4096x4096
      (transpose S32x128x32x128 [2, 3, 0, 1]
        (mulf (shapeCast S32x128x32x128 w shapeCasts_S4096x4096_S32x128x32x128)
          (broadcastInDim S32x128x32x128 ![0, 1, 2, 3] bcast_S32x1x32x1_S32x128x32x128_0_1_2_3
            (broadcastInDim S32x1x32x1 ![0, 2] bcast_S32x32_S32x1x32x1_0_2 sc)))
        transposes_S32x128x32x128_S32x128x32x128_2_3_0_1)
      shapeCasts_S32x128x32x128_S4096x4096)
    bitsLt_bf16_f32

/-- The region finds the weight operand at that function of the argument arrays as launched. -/
theorem V_weights (m : (ℓ : Loc nD τ sig) → Buf (Elt Ideal) ℓ) (c : Dev nD) :
    (V m c main_v6 : S4096x4096.Idx → EReal)
      = hostWeights (m ((c : Thread nD τ).loc main_arg1)) (m ((c : Thread nD τ).loc main_arg2)) := by
  dsimp only [Gen.V, Gen.hostOps0]
  after_results
  rfl

/-- THE WEIGHT OPERAND at (input feature `k`, output feature `o`) is the dequantized weight at (`o`, `k`). -/
theorem hostWeights_apply (w : FVec Ideal S4096x4096 .f32) (sc : FVec Ideal S32x32 .f32) (k o : Fin 4096) :
    hostWeights w sc (ix2 k o) = Cert.Spec.wdq w sc o k := by
  have hk := k.isLt
  have ho := o.isLt
  unfold hostWeights
  rw [truncf_apply]
  refine (shapeCast_apply _ shapeCasts_S32x128x32x128_S4096x4096 (ix2 k o) (ix4 (tile k) (lane k) (tile o) (lane o)) ?_).trans ?_
  · rewrite [Shape.rowMajor_val_four, Shape.rowMajor_val_two]
    show ((k.val / 128 * 128 + k.val % 128) * 32 + o.val / 128) * 128 + o.val % 128 = k.val * 4096 + o.val
    omega
  refine (transpose_apply [2, 3, 0, 1] _ transposes_S32x128x32x128_S32x128x32x128_2_3_0_1
    (ix4 (tile k) (lane k) (tile o) (lane o)) (ix4 (tile o) (lane o) (tile k) (lane k)) ?_).trans ?_
  · intro b; fin_cases b <;> rfl
  show shapeCast S32x128x32x128 w shapeCasts_S4096x4096_S32x128x32x128 (ix4 (tile o) (lane o) (tile k) (lane k))
      * broadcastInDim S32x128x32x128 ![0, 1, 2, 3] bcast_S32x1x32x1_S32x128x32x128_0_1_2_3
          (broadcastInDim S32x1x32x1 ![0, 2] bcast_S32x32_S32x1x32x1_0_2 sc) (ix4 (tile o) (lane o) (tile k) (lane k))
    = w (ix2 o k) * sc (ix2 (tile o) (tile k))
  have e1 : shapeCast S32x128x32x128 w shapeCasts_S4096x4096_S32x128x32x128 (ix4 (tile o) (lane o) (tile k) (lane k)) = w (ix2 o k) :=
    shapeCast_apply w shapeCasts_S4096x4096_S32x128x32x128 _ (ix2 o k) (by
      rewrite [Shape.rowMajor_val_two, Shape.rowMajor_val_four]
      show o.val * 4096 + k.val = ((o.val / 128 * 128 + o.val % 128) * 32 + k.val / 128) * 128 + k.val % 128
      omega)
  have e2 : broadcastInDim S32x128x32x128 ![0, 1, 2, 3] bcast_S32x1x32x1_S32x128x32x128_0_1_2_3
      (broadcastInDim S32x1x32x1 ![0, 2] bcast_S32x32_S32x1x32x1_0_2 sc) (ix4 (tile o) (lane o) (tile k) (lane k))
      = sc (ix2 (tile o) (tile k)) :=
    (broadcastInDim_apply _ bcast_S32x1x32x1_S32x128x32x128_0_1_2_3 _ _
      (ix4 (tile o) (0 : Fin 1) (tile k) (0 : Fin 1)) (fun a => by fin_cases a <;> rfl)).trans
    (broadcastInDim_apply _ bcast_S32x32_S32x1x32x1_0_2 sc _ (ix2 (tile o) (tile k)) (fun a => by fin_cases a <;> rfl))
  rw [e1, e2]

end Cert.KernelValue

end
-- ==== Proof.KernelArray.lean ====
/-
  From the kernel's blocks to its result array. The grid has 64 points; point `t` reads rows `128·t … 128·t + 127` of the
  activations and the whole weight operand, and writes the same rows of the result. What it writes is those rows of
  the specification `G` (Spec): the body's store at (row, output feature) is the activation row against the weight
  operand's column (KernelPayload), and the weight operand's column is the dequantized weights' row (KernelWeights).
  Every row lies in the block of point `row / 128`, so the 64 blocks cover the array and the array ends holding `G`.
-/
import proofs.«180361_j14293651161742_2_alg».proof.Proof.Gen.KernelIdeal.Value
import proofs.«180361_j14293651161742_2_alg».proof.Proof.KernelPayload
import proofs.«180361_j14293651161742_2_alg».proof.Proof.KernelWeights
import proofs.«180361_j14293651161742_2_alg».proof.Proof.Spec

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 64 points: the activations' and the result's blocks are block `t` along
    the rows and the only block along the features; the weight operand's block is the whole matrix. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block's store is the entry of `G` it lands on, when the activation block's row is the array's row
    and the weight operand's column is the dequantized weights' row of the entry's output feature. -/
theorem block_entry (x0 : Vec Ideal S128x4096 .f32) (x1 : Vec Ideal S4096x4096 .bf16)
    (X : FVec Ideal S8192x4096 .f32) (w : FVec Ideal S4096x4096 .f32) (sc : FVec Ideal S32x32 .f32)
    (j : S128x4096.Idx) (i : S8192x4096.Idx)
    (h0 : ∀ k : Fin 4096, x0 (ix2 (j 0) k) = X (ix2 (i 0) k))
    (h1 : ∀ k : Fin 4096, x1 (ix2 k (j 1)) = Cert.Spec.wdq w sc (i 1) k) :
    k0_pay1 (F := Ideal) x0 x1 j = Cert.Spec.G X w sc i := by
  obtain ⟨r, o, rfl⟩ : ∃ (r : Fin 128) (o : Fin 4096), j = ix2 r o := ⟨j 0, j 1, eq_ix2 j⟩
  obtain ⟨p, o', rfl⟩ : ∃ (p : Fin 8192) (o' : Fin 4096), i = ix2 p o' := ⟨i 0, i 1, eq_ix2 i⟩
  rw [payload_apply, Cert.Spec.G_apply]
  refine Finset.sum_congr rfl fun k _ => ?_
  have h0' : x0 (ix2 r k) = X (ix2 p k) := h0 k
  have h1' : x1 (ix2 k o) = Cert.Spec.wdq w sc o' k := h1 k
  rw [h0', h1']

/-- WHAT POINT `t` WRITES BACK is block `t` of `G` of the argument arrays as launched. -/
theorem flushed_eq (c : Dev nD) (t : Fin cfg0.N) :
    (dats m 0 c).flushed 2 t = ((cfg0.win 2).blk t).view.read (Elt Ideal)
      (Cert.Spec.G (m ((c : Thread nD τ).loc main_arg0)) (m ((c : Thread nD τ).loc main_arg1)) (m ((c : Thread nD τ).loc main_arg2))) := by
  show (cfg0.win 2).cut (grid0.coords t) ((dats m 0 c).after 2 t) = _
  rw [after0_2]
  unfold out0_2
  rw [View.canon_unit_zero zero_offsets]
  simp only [View.ld_unit_zero (S := S128x4096) zero_offsets, View.ld_unit_zero (S := S4096x4096) zero_offsets]
  obtain ⟨e00, e01, e10, e11, e20, e21⟩ := index_facts t
  funext j
  show k0_pay1 (F := Ideal) (iblk m c 0 t) (iblk m c 1 t) j = Cert.Spec.G _ _ _ (((cfg0.win 2).blk t).view.emb j)
  have hj0 : (j 0).val < 128 := (j 0).isLt
  have hj1 : (j 1).val < 4096 := (j 1).isLt
  refine block_entry (iblk m c 0 t) (iblk m c 1 t) _ _ _ j (((cfg0.win 2).blk t).view.emb j) (fun k => ?_) (fun k => ?_)
  · show V m c main_arg0 (((cfg0.win 0).blk t).view.emb (ix2 (j 0) k)) = _
    rw [V_main_arg0]
    refine congrArg _ (funext fun a => Fin.ext ?_)
    match a with
    | ⟨0, _⟩ => show win0_0.index t (0 : Fin 2) * 128 + 1 * (j 0).val = win0_2.index t (0 : Fin 2) * 128 + 1 * (j 0).val; omega
    | ⟨1, _⟩ => show win0_0.index t (1 : Fin 2) * 4096 + 1 * k.val = k.val; omega
  · show (V m c main_v6 : S4096x4096.Idx → EReal) (((cfg0.win 1).blk t).view.emb (ix2 k (j 1))) = _
    rw [V_weights]
    have e : ((cfg0.win 1).blk t).view.emb (ix2 k (j 1)) = ix2 k ((((cfg0.win 2).blk t).view.emb j) 1) := by
      funext a; apply Fin.ext
      match a with
      | ⟨0, _⟩ => show win0_1.index t (0 : Fin 2) * 4096 + 1 * k.val = k.val; omega
      | ⟨1, _⟩ => show win0_1.index t (1 : Fin 2) * 4096 + 1 * (j 1).val = win0_2.index t (1 : Fin 2) * 4096 + 1 * (j 1).val; omega
    rw [e]
    exact hostWeights_apply _ _ k _

/-- An index of the result array is in point `t`'s block iff each coordinate is in the block's range on its axis. -/
theorem mem_blk (t : Fin cfg0.N) (i : S8192x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v7).slice (win0_2.rect t)).set ↔ _
  rw [View.set_slice_whole, Rect.mem_set_unit]
  exact Iff.rfl

/-- THE COVER: row `r` of the result is written by point `r / 128`. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have hN : grid0.N = 64 := N_0
  have hlt : (i 0).val / 128 < grid0.N := by omega
  obtain ⟨-, -, -, -, e20, e21⟩ := index_facts ⟨(i 0).val / 128, hlt⟩
  have e20' : win0_2.index ⟨(i 0).val / 128, hlt⟩ (0 : Fin 2) = (i 0).val / 128 := e20
  refine ⟨⟨(i 0).val / 128, hlt⟩, flush0_2 _, ?_⟩
  rw [mem_blk]
  intro a
  match a with
  | ⟨0, _⟩ =>
    show win0_2.index ⟨(i 0).val / 128, hlt⟩ (0 : Fin 2) * 128 ≤ (i 0).val
      ∧ (i 0).val < win0_2.index ⟨(i 0).val / 128, hlt⟩ (0 : Fin 2) * 128 + 128
    omega
  | ⟨1, _⟩ =>
    show win0_2.index ⟨(i 0).val / 128, hlt⟩ (1 : Fin 2) * 4096 ≤ (i 1).val
      ∧ (i 1).val < win0_2.index ⟨(i 0).val / 128, hlt⟩ (1 : Fin 2) * 4096 + 4096
    omega

/-- THE RESULT ARRAY after the run is `G` of the argument arrays as launched. -/
theorem final (c : Dev nD) : (dats m 0 c).arrAt 2 cfg0.N
    = Cert.Spec.G (m ((c : Thread nD τ).loc main_arg0)) (m ((c : Thread nD τ).loc main_arg1)) (m ((c : Thread nD τ).loc main_arg2)) :=
  (dats m 0 c).arrAt_eq_of_cover 2 _ (fun t _ => flushed_eq m c t) cover

/-- The kernel's run: every weakly fair execution ends with the result array at `G` of the arguments, the arguments unchanged. -/
theorem run : θ_run defs (onTc (τ := τ) (main (F := Ideal))) ⟨m, fun _ => 0, ρ⟩ fun r => ∀ c : Dev nD,
      r.2.mem ((c : Thread nD τ).loc main_v7)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelValue

end
-- ==== Proof.lean ====
/-
  A linear layer with blockwise-scaled weights: y[p, o] = Σ_k x[p, k] · (w[o, k] · sc[o / 128, k / 128]), for activations
  x : 8192 × 4096, weights w : 4096 × 4096 and one scale per 128 × 128 tile of the weights, over the extended reals.

  The kernel dequantizes and transposes the weights on the host, then multiplies 128 activation rows at a time by the
  whole weight matrix. The reference first quantizes each block of 128 activations by the block's scale
  s = (max over the block of |x|) / 448 and immediately multiplies by s again, then contracts with the same dequantized
  weights. The two agree because, for real activations, (x / s) · s = x: real arithmetic when the block's maximum is
  positive, and 0 = 0 when the block is all zero (there s = 0, 0 / 0 is the junk value ⊥ and ⊥ · 0 = 0). This is the one
  place the precondition is used — at an infinite activation the identity fails — and only the activations' finiteness
  is used. Everything else is the same sum of the same products.

  Modules: Spec (the function G both programs compute), RoundTrip (the law above), Finite (the precondition gives real
  activations), RefValue (the reference's result is G), KernelPayload / KernelWeights / KernelArray (the kernel's
  result array is G), and here the five claims.
-/
import proofs.«180361_j14293651161742_2_alg».proof.Defs
import proofs.«180361_j14293651161742_2_alg».proof.Proof.Gen.Kernel
import proofs.«180361_j14293651161742_2_alg».proof.Proof.Gen.Kernel.Skeleton
import proofs.«180361_j14293651161742_2_alg».proof.Proof.Gen.Kernel.Launch
import proofs.«180361_j14293651161742_2_alg».proof.Proof.Gen.Kernel.Points
import proofs.«180361_j14293651161742_2_alg».proof.Proof.Gen.Kernel.Frame
import proofs.«180361_j14293651161742_2_alg».proof.Proof.Gen.KernelIdeal
import proofs.«180361_j14293651161742_2_alg».proof.Proof.Gen.KernelIdeal.Skeleton
import proofs.«180361_j14293651161742_2_alg».proof.Proof.Gen.KernelIdeal.Launch
import proofs.«180361_j14293651161742_2_alg».proof.Proof.Gen.KernelIdeal.Points
import proofs.«180361_j14293651161742_2_alg».proof.Proof.Gen.KernelIdeal.Frame
import proofs.«180361_j14293651161742_2_alg».proof.Proof.Gen.KernelIdeal.Value
import proofs.«180361_j14293651161742_2_alg».proof.Proof.Gen.ReferenceIdeal
import proofs.«180361_j14293651161742_2_alg».proof.Proof.Gen.ReferenceIdeal.Run
import proofs.«180361_j14293651161742_2_alg».proof.Proof.Gen.ReferenceIdeal.Read
import proofs.«180361_j14293651161742_2_alg».proof.Proof.Gen.Pre_finite_inputs
import proofs.«180361_j14293651161742_2_alg».proof.Proof.Spec
import proofs.«180361_j14293651161742_2_alg».proof.Proof.RoundTrip
import proofs.«180361_j14293651161742_2_alg».proof.Proof.Finite
import proofs.«180361_j14293651161742_2_alg».proof.Proof.RefValue
import proofs.«180361_j14293651161742_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result at `G` of the argument arrays: the kernel whatever the arguments are, the
    reference because the precondition makes the activations real. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _).trans ?_
  rw [(hagree c).1, (hagree c).2.1, (hagree c).2.2]
  exact Cert.RefValue.result_eq _ _ _ (fun i => Cert.Finite.real_arg0 _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
